-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000x128 .f32) (main_arg2 : FVec F S128x128 .f32) (main_arg3 : FVec F S128x128 .f32) (main_arg4 : FVec F S128 .f32) (main_arg5 : FVec F S128 .f32) (main_arg6 : FVec F S256x128 .f32) (main_arg7 : FVec F S128 .f32) (main_arg8 : IVec S800000 32) (main_arg9 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S1x128 : Shape := ⟨2, ![1, 128]⟩
abbrev S2000x128 : Shape := ⟨2, ![2000, 128]⟩
abbrev S8000x128 : Shape := ⟨2, ![8000, 128]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S4000x128 : Shape := ⟨2, ![4000, 128]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S1x128, .f32⟩
  | .hbm, ⟨11, _⟩ => ⟨S50000x128, .f32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S128x128, .f32⟩
  | .hbm, ⟨57, _⟩ => ⟨S128x128, .f32⟩
  | .hbm, ⟨58, _⟩ => ⟨S128, .f32⟩
  | .hbm, ⟨59, _⟩ => ⟨S1x128, .f32⟩
  | .hbm, ⟨60, _⟩ => ⟨S800000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S8000x128, .f32⟩
  | .local _ .vmem, ⟨10, _⟩ => ⟨S8000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  broadcasts_S1x128_S4000x128 : S1x128.Broadcasts S4000x128
  dot_S2000x128_S128x128_S2000x128_1_0_0_1_n_n_wf : DotDims.WF S2000x128 S128x128 S2000x128 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S800000x128.size a
  hwx2_2 : ∀ i : grid2.Coords, EltTy.bits .f32 = 32 ∨ (Rect.block (s := S800000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S800000x128.size a
  hwx2_3 : ∀ i : grid2.Coords, EltTy.bits .f32 = 32 ∨ (Rect.block (s := S800000x128) S4000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S800000x128.size a
  hwx2_7 : ∀ i : grid2.Coords, EltTy.bits .f32 = 32 ∨ (Rect.block (s := S800000x128) S4000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1x128 : Shape := ⟨2, ![1, 128]⟩
abbrev S800000x256 : Shape := ⟨2, ![800000, 256]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S50000x128, .f32⟩
  | .hbm, ⟨11, _⟩ => ⟨S800000x128, .f32⟩
  | .hbm, ⟨12, _⟩ => ⟨S_, .f32⟩
  | .hbm, ⟨13, _⟩ => ⟨S50000x128, .f32⟩
  | .hbm, ⟨14, _⟩ => ⟨S800000x1, .i32⟩
  | .hbm, ⟨15, _⟩ => ⟨S50000x128, .f32⟩
  | .hbm, ⟨16, _⟩ => ⟨S800000x1, .f32⟩
  | .hbm, ⟨17, _⟩ => ⟨S800000, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S800000x256, .f32⟩
  | .hbm, ⟨69, _⟩ => ⟨S800000x128, .f32⟩
  | .hbm, ⟨70, _⟩ => ⟨S1x128, .f32⟩
  | .hbm, ⟨71, _⟩ => ⟨S800000x128, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S800000x128, .f32⟩
  | .hbm, ⟨78, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  slices_S800000x128_S800000x1_0_0 : S800000x128.Slices ![0, 0] S800000x1
  shapeCasts_S800000x1_S800000 : S800000x1.ShapeCasts S800000
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.KernelRun.lean ====
/-
  The idealized kernel's run, with its two results named.

  The program is five stretches in order: a reshape of the node bias on the host, the node grid, the edge-projection
  grid, a stretch of host operations (the scatter-add mean over destination nodes, three row gathers, two slices of
  the dense weight and the sum of the two biases), and the edge-update grid. The contents of the unscoped buffers at
  the boundaries between stretches form a fold from the launch memory: a host stretch applies its operations, a grid
  replaces its arrays by what its write-backs leave and keeps every other buffer. The last of these boundary contents
  is where every buffer ends, so each result buffer ends at the fold's value there, and the arguments end as launched.
-/
import proofs.«115020_j81716047774294_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the node result and the edge result at the last
    boundary's contents and the arguments as launched. -/
theorem run : θ_run defs (onTc (τ := τ) (main (F := F))) ⟨m, fun _ => 0, ρ⟩ (fun r => ∀ c : Dev nD,
      r.2.mem ((c.tc : Thread nD τ).loc main_v1) = W5 m ρ c (Proc.devRef .tc main_v1)
      ∧ r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v1 (by decide)),
       h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.NodeValue.lean ====
/-
  The node update (the first of the kernel's three grids), read as a value.

  The grid has 25 points; point `t` loads rows `2000·t … 2000·t + 1999` of the node features `nf`, the whole
  128 × 128 weight `W` and the bias as one row `b : 1 × 128`, and writes back `max(x · W + b, 0)` into the same rows
  of the result, the bias row repeated down the block. At the exact instance the product is the plain sum on the
  extended reals, so what point `t` writes is block `t` of ONE function of the three arrays,

      node nf W b (r, c) = max (Σ_{k < 128} nf[r, k] · W[k, c] + b[0, c]) 0,

  and since the 25 blocks tile the 50000 rows (row `r` lies in block `r / 2000`) the result array IS `node nf W b`.
  Stated at any contents `V` the grid is entered from.
-/
import proofs.«115020_j81716047774294_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.NodeValue

open Idealize.ShloMosaic Idealize.ShloMosaic.TcCoe Idealize.SL.Sem
open Cert.KernelIdeal Cert.KernelIdeal.Gen
open Idealize.ShloMosaic.Pipeline (Dat)

/-- Entry `(j₀, k)` of a block of 2000 rows: where the left factor of term `k` of `(x · w)[j]` is read. -/
abbrev brow (j : S2000x128.Idx) (k : Fin 128) : S2000x128.Idx := fun a => match a with
  | ⟨0, _⟩ => ⟨(j 0).val, (j 0).isLt⟩
  | ⟨1, _⟩ => ⟨k.val, k.isLt⟩
/-- Entry `(k, j₁)` of the 128 × 128 weight: where the right factor of term `k` is read. -/
abbrev bcol (j : S2000x128.Idx) (k : Fin 128) : S128x128.Idx := fun a => match a with
  | ⟨0, _⟩ => ⟨k.val, k.isLt⟩
  | ⟨1, _⟩ => ⟨(j 1).val, (j 1).isLt⟩

theorem blhs0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blhs1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem brhs0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem brhs1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times the weight, into a zero accumulator, at an entry: the plain sum over the 128 shared
    coordinates (the products and the sum are the extended reals'; the narrowing of both factors is the identity). -/
theorem bmatmul_apply {φ₁ φ₂ : FTy} (l : FVec Ideal S2000x128 φ₁) (r : FVec Ideal S128x128 φ₂) (j : S2000x128.Idx) :
    FloatOps.matmul dot_S2000x128_S128x128_S2000x128_1_0_0_1_n_n none l r (constant S2000x128 .f32 0x00000000#32) j = ∑ k : Fin 128, l (brow j k) * r (bcol j k) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = brow j k := funext fun a => Fin.ext (by
    match a with
    | ⟨0, _⟩ => exact blhs0 _ _
    | ⟨1, _⟩ => exact (blhs1 _ _).trans hk)
  have er : dot_S2000x128_S128x128_S2000x128_1_0_0_1_n_n.rhsIdx j ((ValueIdx.contrEquiv1 dot_S2000x128_S128x128_S2000x128_1_0_0_1_n_n 128 rfl rfl).symm k) = bcol j k := funext fun a => Fin.ext (by
    match a with
    | ⟨0, _⟩ => exact (brhs0 _ _).trans hk
    | ⟨1, _⟩ => exact brhs1 _ _)
  rw [el, er]

/-- Entry `(0, j₁)` of the bias row: what the repeated row holds in column `j₁`. -/
abbrev bbias (j : S2000x128.Idx) : S1x128.Idx := fun a => match a with
  | ⟨0, _⟩ => ⟨0, Nat.zero_lt_one⟩
  | ⟨1, _⟩ => ⟨(j 1).val, (j 1).isLt⟩

/-- The one row repeated down a block of 2000 rows reads, at `(r, c)`, the row at `c`. -/
theorem bias_apply (x2 : Vec Ideal S1x128 .f32) (j : S2000x128.Idx) :
    broadcastTo S2000x128 (shapeCast S1x128 x2 shapeCasts_S1x128_S1x128) broadcasts_S1x128_S2000x128 j = x2 (bbias j) :=
  (broadcastTo_apply _ broadcasts_S1x128_S2000x128 j (bbias j) (fun a => by
    match a with
    | ⟨0, _⟩ => rfl
    | ⟨1, _⟩ => rfl)).trans (congrFun (shapeCast_self x2 shapeCasts_S1x128_S1x128) _)

/-- The body's one stored value at an entry of the block. -/
theorem pay_apply (x0 : Vec Ideal S2000x128 .f32) (x1 : Vec Ideal S128x128 .f32) (x2 : Vec Ideal S1x128 .f32) (j : S2000x128.Idx) :
    k0_pay1 (F := Ideal) x0 x1 x2 j
      = max ((∑ k : Fin 128, x0 (brow j k) * x1 (bcol j k)) + x2 (bbias j)) (Scalar.ofBits (F := Ideal) .f32 0x00000000#32) := by
  unfold k0_pay1
  exact congrArg₂ max (congrArg₂ (· + ·) (bmatmul_apply _ _ j) (bias_apply x2 j)) rfl

/-! ## The whole array -/

/-- Entry `(i₀, k)` of the 50000 × 128 array. -/
abbrev arow (i : S50000x128.Idx) (k : Fin 128) : S50000x128.Idx := fun a => match a with
  | ⟨0, _⟩ => ⟨(i 0).val, (i 0).isLt⟩
  | ⟨1, _⟩ => ⟨k.val, k.isLt⟩
/-- Entry `(k, i₁)` of the weight. -/
abbrev acol (i : S50000x128.Idx) (k : Fin 128) : S128x128.Idx := fun a => match a with
  | ⟨0, _⟩ => ⟨k.val, k.isLt⟩
  | ⟨1, _⟩ => ⟨(i 1).val, (i 1).isLt⟩
/-- Entry `(0, i₁)` of the bias row. -/
abbrev abias (i : S50000x128.Idx) : S1x128.Idx := fun a => match a with
  | ⟨0, _⟩ => ⟨0, Nat.zero_lt_one⟩
  | ⟨1, _⟩ => ⟨(i 1).val, (i 1).isLt⟩

/-- The node update as one function of the three arrays:
    `node x w b (r, c) = max (Σ_k x[r, k] · w[k, c] + b[0, c]) 0`. -/
def node (x : S50000x128.Idx → Elt Ideal .f32) (w : S128x128.Idx → Elt Ideal .f32) (b : S1x128.Idx → Elt Ideal .f32) :
    S50000x128.Idx → Elt Ideal .f32 :=
  fun i => max ((∑ k : Fin 128, x (arow i k) * w (acol i k)) + b (abias i)) (Scalar.ofBits (F := Ideal) .f32 0x00000000#32)

theorem hz : (![0, 0] : Fin 2 → Nat) = fun _ => 0 := funext fun a => by fin_cases a <;> rfl

/-- The printed index maps over the grid: the feature window and the result window both sit at block `t` of the
    rows and at the only block of the columns; the weight and the bias row never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block's stored value, its operands read off arrays `A`, `W` and the bias row `B` through index maps that carry
    the block's row to the array's row and keep the other coordinates, is `node A W B` at the array's index. -/
theorem block_eq (A : S50000x128.Idx → Elt Ideal .f32) (W : S128x128.Idx → Elt Ideal .f32) (B : S1x128.Idx → Elt Ideal .f32)
    (e0 : S2000x128.Idx → S50000x128.Idx) (e1 : S128x128.Idx → S128x128.Idx) (e2 : S1x128.Idx → S1x128.Idx)
    (i : S50000x128.Idx) (j : S2000x128.Idx)
    (h0 : ∀ k, e0 (brow j k) = arow i k) (h1 : ∀ k, e1 (bcol j k) = acol i k) (h2 : e2 (bbias j) = abias i) :
    k0_pay1 (F := Ideal) (fun y => A (e0 y)) (fun y => W (e1 y)) (fun y => B (e2 y)) j = node A W B i := by
  rw [pay_apply]
  unfold node
  simp only [h0, h1, h2]

variable (V : (c : Dev nD) → (b : Ref sig .tc) → Buf (Elt Ideal) ((c : Thread nD τ).loc b))

/-- What point `t` writes back is block `t` of `node` of the three arrays as the grid finds them. -/
theorem flushed_eq (c : Dev nD) (t : Fin cfg0.N) :
    (dat0 V c).flushed 3 t = ((cfg0.win 3).blk t).view.read (Elt Ideal) (node (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  funext j
  refine block_eq (V c main_arg0) (V c main_arg2) (V c main_v0) ((cfg0.win 0).blk t).view.emb ((cfg0.win 1).blk t).view.emb
    ((cfg0.win 2).blk t).view.emb (((cfg0.win 3).blk t).view.emb j) ((cfg0.win 3).xinj (grid0.coords t) j) (fun k => ?_) (fun k => ?_) ?_
  · funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every entry of the result array lies in the block of point `r / 2000`, `r` its row. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨e0, e1, e2, e3, e4, e5, e6, e7⟩ := idx_facts t
  have e6' : win0_3.index t (0 : Fin 2) = (i 0).val / 2000 := e6
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY after the grid: `node` of the features, the weight and the bias row as the grid found them. -/
theorem final (c : Dev nD) : (dat0 V c).arrAt 3 cfg0.N = node (V c main_arg0) (V c main_arg2) (V c main_v0) :=
  (dat0 V c).arrAt_eq_of_cover 3 (node (V c main_arg0) (V c main_arg2) (V c main_v0)) (fun t _ => flushed_eq V c t) cover

end Cert.KernelIdeal.NodeValue

end
-- ==== Proof.ProjValue.lean ====
/-
  The edge projection (the second of the kernel's three grids), read as a value.

  The grid has 100 points; point `t` loads rows `8000·t … 8000·t + 7999` of the edge features `ef` and the whole
  128 × 128 weight `W`, and writes back their product into the same rows of the result. At the exact instance a
  product into a zero accumulator is the plain sum `Σ_k x[r, k] · W[k, c]` on the extended reals and the narrowing of
  both factors is the identity, so what point `t` writes is block `t` of ONE function of the two arrays,

      proj ef W (r, c) = Σ_{k < 128} ef[r, k] · W[k, c],

  and since the 100 blocks tile the 800000 rows (row `r` lies in block `r / 8000`) the result array IS `proj ef W`.
  Stated at any contents `V` the grid is entered from.
-/
import proofs.«115020_j81716047774294_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.ProjValue

open Idealize.ShloMosaic Idealize.ShloMosaic.TcCoe Idealize.SL.Sem
open Cert.KernelIdeal Cert.KernelIdeal.Gen
open Idealize.ShloMosaic.Pipeline (Dat)

/-- Entry `(j₀, k)` of a block of 8000 rows: where the left factor of term `k` of `(x · w)[j]` is read. -/
abbrev brow (j : S8000x128.Idx) (k : Fin 128) : S8000x128.Idx := fun a => match a with
  | ⟨0, _⟩ => ⟨(j 0).val, (j 0).isLt⟩
  | ⟨1, _⟩ => ⟨k.val, k.isLt⟩
/-- Entry `(k, j₁)` of the 128 × 128 weight: where the right factor of term `k` is read. -/
abbrev bcol (j : S8000x128.Idx) (k : Fin 128) : S128x128.Idx := fun a => match a with
  | ⟨0, _⟩ => ⟨k.val, k.isLt⟩
  | ⟨1, _⟩ => ⟨(j 1).val, (j 1).isLt⟩

theorem blhs0 (j : S8000x128.Idx) (q : dot_S8000x128_S128x128_S8000x128_1_0_0_1_n_n.contr.Idx) : (dot_S8000x128_S128x128_S8000x128_1_0_0_1_n_n.lhsIdx j q 0).val = (j 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem blhs1 (j : S8000x128.Idx) (q : dot_S8000x128_S128x128_S8000x128_1_0_0_1_n_n.contr.Idx) : (dot_S8000x128_S128x128_S8000x128_1_0_0_1_n_n.lhsIdx j q 1).val = (q ⟨0, by decide⟩).val :=
  dot_S8000x128_S128x128_S8000x128_1_0_0_1_n_n.lhsIdx_val_of_single rfl j q
theorem brhs0 (j : S8000x128.Idx) (q : dot_S8000x128_S128x128_S8000x128_1_0_0_1_n_n.contr.Idx) : (dot_S8000x128_S128x128_S8000x128_1_0_0_1_n_n.rhsIdx j q 0).val = (q ⟨0, by decide⟩).val :=
  dot_S8000x128_S128x128_S8000x128_1_0_0_1_n_n.rhsIdx_val_of_single rfl j q
theorem brhs1 (j : S8000x128.Idx) (q : dot_S8000x128_S128x128_S8000x128_1_0_0_1_n_n.contr.Idx) : (dot_S8000x128_S128x128_S8000x128_1_0_0_1_n_n.rhsIdx j q 1).val = (j 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A block of 8000 rows times the weight, into a zero accumulator, at an entry: the plain sum over the 128 shared
    coordinates (the products and the sum are the extended reals'; the narrowing of both factors is the identity). -/
theorem bmatmul_apply {φ₁ φ₂ : FTy} (l : FVec Ideal S8000x128 φ₁) (r : FVec Ideal S128x128 φ₂) (j : S8000x128.Idx) :
    FloatOps.matmul dot_S8000x128_S128x128_S8000x128_1_0_0_1_n_n none l r (constant S8000x128 .f32 0x00000000#32) j = ∑ k : Fin 128, l (brow j k) * r (bcol j k) := by
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx j ((ValueIdx.contrEquiv1 dot_S8000x128_S128x128_S8000x128_1_0_0_1_n_n 128 rfl rfl).symm k) = brow j k := funext fun a => Fin.ext (by
    match a with
    | ⟨0, _⟩ => exact blhs0 _ _
    | ⟨1, _⟩ => exact (blhs1 _ _).trans hk)
  have er : dot_S8000x128_S128x128_S8000x128_1_0_0_1_n_n.rhsIdx j ((ValueIdx.contrEquiv1 dot_S8000x128_S128x128_S8000x128_1_0_0_1_n_n 128 rfl rfl).symm k) = bcol j k := funext fun a => Fin.ext (by
    match a with
    | ⟨0, _⟩ => exact (brhs0 _ _).trans hk
    | ⟨1, _⟩ => exact brhs1 _ _)
  rw [el, er]

/-- The body's one stored value at an entry of the block: the sum over the shared coordinate. -/
theorem pay_apply (x0 : Vec Ideal S8000x128 .f32) (x1 : Vec Ideal S128x128 .f32) (j : S8000x128.Idx) :
    k1_pay1 (F := Ideal) x0 x1 j = ∑ k : Fin 128, x0 (brow j k) * x1 (bcol j k) := by
  unfold k1_pay1
  exact bmatmul_apply _ _ j

/-! ## The whole array -/

/-- Entry `(i₀, k)` of the 800000 × 128 array. -/
abbrev arow (i : S800000x128.Idx) (k : Fin 128) : S800000x128.Idx := fun a => match a with
  | ⟨0, _⟩ => ⟨(i 0).val, (i 0).isLt⟩
  | ⟨1, _⟩ => ⟨k.val, k.isLt⟩
/-- Entry `(k, i₁)` of the weight. -/
abbrev acol (i : S800000x128.Idx) (k : Fin 128) : S128x128.Idx := fun a => match a with
  | ⟨0, _⟩ => ⟨k.val, k.isLt⟩
  | ⟨1, _⟩ => ⟨(i 1).val, (i 1).isLt⟩

/-- The projection as one function of the two arrays: `proj x w (r, c) = Σ_k x[r, k] · w[k, c]`. -/
def proj (x : S800000x128.Idx → Elt Ideal .f32) (w : S128x128.Idx → Elt Ideal .f32) : S800000x128.Idx → Elt Ideal .f32 :=
  fun i => ∑ k : Fin 128, x (arow i k) * w (acol i k)

theorem hz : (![0, 0] : Fin 2 → Nat) = fun _ => 0 := funext fun a => by fin_cases a <;> rfl

/-- The printed index maps over the grid: the feature window and the result window both sit at block `t` of the
    rows and at the only block of the columns; the weight window never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block's stored value, its factors read off arrays `A` and `W` through index maps that carry the block's row
    to the array's row and keep the shared coordinate, is `proj A W` at the array's index. -/
theorem block_eq (A : S800000x128.Idx → Elt Ideal .f32) (W : S128x128.Idx → Elt Ideal .f32)
    (e0 : S8000x128.Idx → S800000x128.Idx) (e1 : S128x128.Idx → S128x128.Idx) (i : S800000x128.Idx) (j : S8000x128.Idx)
    (h0 : ∀ k, e0 (brow j k) = arow i k) (h1 : ∀ k, e1 (bcol j k) = acol i k) :
    k1_pay1 (F := Ideal) (fun y => A (e0 y)) (fun y => W (e1 y)) j = proj A W i := by
  rw [pay_apply]
  unfold proj
  simp only [h0, h1]

variable (V : (c : Dev nD) → (b : Ref sig .tc) → Buf (Elt Ideal) ((c : Thread nD τ).loc b))

/-- What point `t` writes back is block `t` of `proj` of the two arrays as the grid finds them. -/
theorem flushed_eq (c : Dev nD) (t : Fin cfg1.N) :
    (dat1 V c).flushed 2 t = ((cfg1.win 2).blk t).view.read (Elt Ideal) (proj (V c main_arg1) (V c main_arg3)) := by
  show (cfg1.win 2).cut (grid1.coords t) ((dat1 V c).after 2 t) = _
  rw [after1_2]
  unfold out1_2
  rw [View.canon_unit_zero hz]
  simp only [View.ld_unit_zero (S := S8000x128) hz, View.ld_unit_zero (S := S128x128) hz]
  obtain ⟨e0, e1, e2, e3, e4, e5⟩ := idx_facts t
  funext j
  refine block_eq (V c main_arg1) (V c main_arg3) ((cfg1.win 0).blk t).view.emb ((cfg1.win 1).blk t).view.emb
    (((cfg1.win 2).blk t).view.emb j) ((cfg1.win 2).xinj (grid1.coords t) j) (fun k => ?_) (fun k => ?_)
  · funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * k.val = k.val; omega
  · funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v2).slice (win1_2.rect t)).set ↔ _
  rw [View.set_slice_whole, Rect.mem_set_unit]
  exact Iff.rfl

/-- Every entry of the result array lies in the block of point `r / 8000`, `r` its row. -/
theorem cover (i : S800000x128.Idx) : ∃ t : Fin cfg1.N, (cfg1.win 2).flush t = true ∧ i ∈ ((cfg1.win 2).blk t).view.set := by
  have hi0 : (i 0).val < 800000 := (i 0).isLt
  have hi1 : (i 1).val < 128 := (i 1).isLt
  let t : Fin cfg1.N := ⟨(i 0).val / 8000, by rw [show cfg1.N = 100 from N_1]; omega⟩
  obtain ⟨e0, e1, e2, e3, e4, e5⟩ := idx_facts t
  have e4' : win1_2.index t (0 : Fin 2) = (i 0).val / 8000 := e4
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- THE ARRAY after the grid: `proj` of the features and the weight as the grid found them. -/
theorem final (c : Dev nD) : (dat1 V c).arrAt 2 cfg1.N = proj (V c main_arg1) (V c main_arg3) :=
  (dat1 V c).arrAt_eq_of_cover 2 (proj (V c main_arg1) (V c main_arg3)) (fun t _ => flushed_eq V c t) cover

end Cert.KernelIdeal.ProjValue

end
-- ==== Proof.EdgeValue.lean ====
/-
  The edge update (the last of the kernel's three grids), read as a value.

  The grid has 200 points; point `t` loads rows `4000·t … 4000·t + 3999` of four edge arrays — the projected edge
  features `E`, the destination node's mean of incoming projected features `G`, and the updated node features of the
  source `A` and of the destination `B` —, the two 128 × 128 halves `W₁`, `W₂` of the dense weight and the bias as
  one row `b : 1 × 128`, and writes back `max((E + G) · W₁ + ((A + B) · ½) · W₂ + b, 0)` into the same rows of the
  result. At the exact instance each product is the plain sum on the extended reals, so what point `t` writes is block
  `t` of ONE function of the seven arrays,

      edge E G A B W₁ W₂ b (r, c)
        = max ((Σ_k (E[r,k] + G[r,k]) · W₁[k,c] + Σ_k ((A[r,k] + B[r,k]) · ½) · W₂[k,c]) + b[0,c]) 0,

  and since the 200 blocks tile the 800000 rows (row `r` lies in block `r / 4000`) the result array IS that function.
  Stated at any contents `V` the grid is entered from.
-/
import proofs.«115020_j81716047774294_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.EdgeValue

open Idealize.ShloMosaic Idealize.ShloMosaic.TcCoe Idealize.SL.Sem
open Cert.KernelIdeal Cert.KernelIdeal.Gen
open Idealize.ShloMosaic.Pipeline (Dat)

/-- One half, as the word both programs spell it. -/
abbrev half : Ideal .f32 := Scalar.ofBits (F := Ideal) .f32 0x3F000000#32
/-- Zero, as the word both programs spell it. -/
abbrev zero : Ideal .f32 := Scalar.ofBits (F := Ideal) .f32 0x00000000#32

/-- Entry `(j₀, k)` of a block of 4000 rows: where the left factor of term `k` of `(x · w)[j]` is read. -/
abbrev brow (j : S4000x128.Idx) (k : Fin 128) : S4000x128.Idx := fun a => match a with
  | ⟨0, _⟩ => ⟨(j 0).val, (j 0).isLt⟩
  | ⟨1, _⟩ => ⟨k.val, k.isLt⟩
/-- Entry `(k, j₁)` of the 128 × 128 weight: where the right factor of term `k` is read. -/
abbrev bcol (j : S4000x128.Idx) (k : Fin 128) : S128x128.Idx := fun a => match a with
  | ⟨0, _⟩ => ⟨k.val, k.isLt⟩
  | ⟨1, _⟩ => ⟨(j 1).val, (j 1).isLt⟩

theorem blhs0 (j : S4000x128.Idx) (q : dot_S4000x128_S128x128_S4000x128_1_0_0_1_n_n.contr.Idx) : (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem blhs1 (j : S4000x128.Idx) (q : dot_S4000x128_S128x128_S4000x128_1_0_0_1_n_n.contr.Idx) : (dot_S4000x128_S128x128_S4000x128_1_0_0_1_n_n.lhsIdx j q 1).val = (q ⟨0, by decide⟩).val :=
  dot_S4000x128_S128x128_S4000x128_1_0_0_1_n_n.lhsIdx_val_of_single rfl j q
theorem brhs0 (j : S4000x128.Idx) (q : dot_S4000x128_S128x128_S4000x128_1_0_0_1_n_n.contr.Idx) : (dot_S4000x128_S128x128_S4000x128_1_0_0_1_n_n.rhsIdx j q 0).val = (q ⟨0, by decide⟩).val :=
  dot_S4000x128_S128x128_S4000x128_1_0_0_1_n_n.rhsIdx_val_of_single rfl j q
theorem brhs1 (j : S4000x128.Idx) (q : dot_S4000x128_S128x128_S4000x128_1_0_0_1_n_n.contr.Idx) : (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times the weight, into a zero accumulator, at an entry: the plain sum over the 128 shared
    coordinates (the products and the sum are the extended reals'; the narrowing of both factors is the identity). -/
theorem bmatmul_apply {φ₁ φ₂ : FTy} (l : FVec Ideal S4000x128 φ₁) (r : FVec Ideal S128x128 φ₂) (j : S4000x128.Idx) :
    FloatOps.matmul dot_S4000x128_S128x128_S4000x128_1_0_0_1_n_n none l r (constant S4000x128 .f32 0x00000000#32) j = ∑ k : Fin 128, l (brow j k) * r (bcol j k) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = brow j k := funext fun a => Fin.ext (by
    match a with
    | ⟨0, _⟩ => exact blhs0 _ _
    | ⟨1, _⟩ => exact (blhs1 _ _).trans hk)
  have er : dot_S4000x128_S128x128_S4000x128_1_0_0_1_n_n.rhsIdx j ((ValueIdx.contrEquiv1 dot_S4000x128_S128x128_S4000x128_1_0_0_1_n_n 128 rfl rfl).symm k) = bcol j k := funext fun a => Fin.ext (by
    match a with
    | ⟨0, _⟩ => exact (brhs0 _ _).trans hk
    | ⟨1, _⟩ => exact brhs1 _ _)
  rw [el, er]

/-- Entry `(0, j₁)` of the bias row: what the repeated row holds in column `j₁`. -/
abbrev bbias (j : S4000x128.Idx) : S1x128.Idx := fun a => match a with
  | ⟨0, _⟩ => ⟨0, Nat.zero_lt_one⟩
  | ⟨1, _⟩ => ⟨(j 1).val, (j 1).isLt⟩

/-- The one row repeated down a block of 4000 rows reads, at `(r, c)`, the row at `c`. -/
theorem bias_apply (x : Vec Ideal S1x128 .f32) (j : S4000x128.Idx) :
    broadcastTo S4000x128 x broadcasts_S1x128_S4000x128 j = x (bbias j) :=
  broadcastTo_apply _ broadcasts_S1x128_S4000x128 j (bbias j) (fun a => by
    match a with
    | ⟨0, _⟩ => rfl
    | ⟨1, _⟩ => rfl)

/-- The body's one stored value at an entry of the block. -/
theorem pay_apply (x0 x1 x2 x3 : Vec Ideal S4000x128 .f32) (x4 x5 : Vec Ideal S128x128 .f32) (x6 : Vec Ideal S1x128 .f32)
    (j : S4000x128.Idx) :
    k2_pay1 (F := Ideal) x0 x1 x2 x3 x4 x5 x6 j
      = max (((∑ k : Fin 128, (x0 (brow j k) + x1 (brow j k)) * x4 (bcol j k))
          + ∑ k : Fin 128, ((x2 (brow j k) + x3 (brow j k)) * half) * x5 (bcol j k)) + x6 (bbias j)) zero := by
  unfold k2_pay1
  simp only [shapeCast_self]
  exact congrArg₂ max (congrArg₂ (· + ·) (congrArg₂ (· + ·) (bmatmul_apply _ _ j) (bmatmul_apply _ _ j)) (bias_apply _ j)) rfl

/-! ## The whole array -/

/-- Entry `(i₀, k)` of an 800000 × 128 array. -/
abbrev arow (i : S800000x128.Idx) (k : Fin 128) : S800000x128.Idx := fun a => match a with
  | ⟨0, _⟩ => ⟨(i 0).val, (i 0).isLt⟩
  | ⟨1, _⟩ => ⟨k.val, k.isLt⟩
/-- Entry `(k, i₁)` of a 128 × 128 weight. -/
abbrev acol (i : S800000x128.Idx) (k : Fin 128) : S128x128.Idx := fun a => match a with
  | ⟨0, _⟩ => ⟨k.val, k.isLt⟩
  | ⟨1, _⟩ => ⟨(i 1).val, (i 1).isLt⟩
/-- Entry `(0, i₁)` of the bias row. -/
abbrev abias (i : S800000x128.Idx) : S1x128.Idx := fun a => match a with
  | ⟨0, _⟩ => ⟨0, Nat.zero_lt_one⟩
  | ⟨1, _⟩ => ⟨(i 1).val, (i 1).isLt⟩

/-- The edge update as one function of the seven arrays. -/
def edge (E G A B : S800000x128.Idx → Elt Ideal .f32) (W₁ W₂ : S128x128.Idx → Elt Ideal .f32) (b : S1x128.Idx → Elt Ideal .f32) :
    S800000x128.Idx → Elt Ideal .f32 :=
  fun i => max (((∑ k : Fin 128, (E (arow i k) + G (arow i k)) * W₁ (acol i k))
      + ∑ k : Fin 128, ((A (arow i k) + B (arow i k)) * half) * W₂ (acol i k)) + b (abias i)) zero

theorem hz : (![0, 0] : Fin 2 → Nat) = fun _ => 0 := funext fun a => by fin_cases a <;> rfl

/-- The printed index maps over the grid: the four edge windows and the result window sit at block `t` of the rows and
    at the only block of the columns; the two weights and the bias row never move. -/
theorem idx_facts : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- A block's stored value, its operands read off the seven arrays through index maps that carry the block's row to the
    array's row and keep the other coordinates, is `edge` of the arrays at the array's index. -/
theorem block_eq (E G A B : S800000x128.Idx → Elt Ideal .f32) (W₁ W₂ : S128x128.Idx → Elt Ideal .f32) (b : S1x128.Idx → Elt Ideal .f32)
    (e0 e1 e2 e3 : S4000x128.Idx → S800000x128.Idx) (e4 e5 : S128x128.Idx → S128x128.Idx) (e6 : S1x128.Idx → S1x128.Idx)
    (i : S800000x128.Idx) (j : S4000x128.Idx)
    (h0 : ∀ k, e0 (brow j k) = arow i k) (h1 : ∀ k, e1 (brow j k) = arow i k) (h2 : ∀ k, e2 (brow j k) = arow i k)
    (h3 : ∀ k, e3 (brow j k) = arow i k) (h4 : ∀ k, e4 (bcol j k) = acol i k) (h5 : ∀ k, e5 (bcol j k) = acol i k)
    (h6 : e6 (bbias j) = abias i) :
    k2_pay1 (F := Ideal) (fun y => E (e0 y)) (fun y => G (e1 y)) (fun y => A (e2 y)) (fun y => B (e3 y))
      (fun y => W₁ (e4 y)) (fun y => W₂ (e5 y)) (fun y => b (e6 y)) j = edge E G A B W₁ W₂ b i := by
  rw [pay_apply]
  unfold edge
  simp only [h0, h1, h2, h3, h4, h5, h6]

variable (V : (c : Dev nD) → (b : Ref sig .tc) → Buf (Elt Ideal) ((c : Thread nD τ).loc b))

/-- What point `t` writes back is block `t` of `edge` of the seven arrays as the grid finds them. -/
theorem flushed_eq (c : Dev nD) (t : Fin cfg2.N) :
    (dat2 V c).flushed 7 t = ((cfg2.win 7).blk t).view.read (Elt Ideal)
      (edge (V c main_v2) (V c main_v21) (V c main_v28) (V c main_v35) (V c main_v36) (V c main_v37) (V c main_v39)) := by
  show (cfg2.win 7).cut (grid2.coords t) ((dat2 V c).after 7 t) = _
  rw [after2_7]
  unfold out2_7
  rw [View.canon_unit_zero hz]
  simp only [View.ld_unit_zero (S := S4000x128) hz, View.ld_unit_zero (S := S128x128) hz, View.ld_unit_zero (S := S1x128) hz]
  obtain ⟨⟨a0, a1⟩, ⟨b0, b1⟩, ⟨c0, c1⟩, ⟨d0, d1⟩, ⟨f0, f1⟩, ⟨g0, g1⟩, ⟨p0, p1⟩, ⟨q0, q1⟩⟩ := idx_facts t
  funext j
  refine block_eq (V c main_v2) (V c main_v21) (V c main_v28) (V c main_v35) (V c main_v36) (V c main_v37) (V c main_v39)
    ((cfg2.win 0).blk t).view.emb ((cfg2.win 1).blk t).view.emb ((cfg2.win 2).blk t).view.emb ((cfg2.win 3).blk t).view.emb
    ((cfg2.win 4).blk t).view.emb ((cfg2.win 5).blk t).view.emb ((cfg2.win 6).blk t).view.emb
    (((cfg2.win 7).blk t).view.emb j) ((cfg2.win 7).xinj (grid2.coords t) j)
    (fun k => ?_) (fun k => ?_) (fun k => ?_) (fun k => ?_) (fun k => ?_) (fun k => ?_) ?_
  · funext a; apply Fin.ext
    match a with
    | ⟨0, _⟩ => show win2_0.index t (0 : Fin 2) * 4000 + 1 * (j 0).val = win2_7.index t (0 : Fin 2) * 4000 + 1 * (j 0).val; omega
    | ⟨1, _⟩ => show win2_0.index t (1 : Fin 2) * 128 + 1 * k.val = k.val; omega
  · funext a; apply Fin.ext
    match a with
    | ⟨0, _⟩ => show win2_1.index t (0 : Fin 2) * 4000 + 1 * (j 0).val = win2_7.index t (0 : Fin 2) * 4000 + 1 * (j 0).val; omega
    | ⟨1, _⟩ => show win2_1.index t (1 : Fin 2) * 128 + 1 * k.val = k.val; omega
  · funext a; apply Fin.ext
    match a with
    | ⟨0, _⟩ => show win2_2.index t (0 : Fin 2) * 4000 + 1 * (j 0).val = win2_7.index t (0 : Fin 2) * 4000 + 1 * (j 0).val; omega
    | ⟨1, _⟩ => show win2_2.index t (1 : Fin 2) * 128 + 1 * k.val = k.val; omega
  · funext a; apply Fin.ext
    match a with
    | ⟨0, _⟩ => show win2_3.index t (0 : Fin 2) * 4000 + 1 * (j 0).val = win2_7.index t (0 : Fin 2) * 4000 + 1 * (j 0).val; omega
    | ⟨1, _⟩ => show win2_3.index t (1 : Fin 2) * 128 + 1 * k.val = k.val; omega
  · funext a; apply Fin.ext
    match a with
    | ⟨0, _⟩ => show win2_4.index t (0 : Fin 2) * 128 + 1 * k.val = k.val; omega
    | ⟨1, _⟩ => show win2_4.index t (1 : Fin 2) * 128 + 1 * (j 1).val = win2_7.index t (1 : Fin 2) * 128 + 1 * (j 1).val; omega
  · funext a; apply Fin.ext
    match a with
    | ⟨0, _⟩ => show win2_5.index t (0 : Fin 2) * 128 + 1 * k.val = k.val; omega
    | ⟨1, _⟩ => show win2_5.index t (1 : Fin 2) * 128 + 1 * (j 1).val = win2_7.index t (1 : Fin 2) * 128 + 1 * (j 1).val; omega
  · funext a; apply Fin.ext
    match a with
    | ⟨0, _⟩ => show win2_6.index t (0 : Fin 2) * 1 + 1 * 0 = 0; omega
    | ⟨1, _⟩ => show win2_6.index t (1 : Fin 2) * 128 + 1 * (j 1).val = win2_7.index t (1 : Fin 2) * 128 + 1 * (j 1).val; omega

/-- An index of the result array is in point `t`'s block iff each coordinate is in the block's range on its axis. -/
theorem mem_blk (t : Fin cfg2.N) (i : S800000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v40).slice (win2_7.rect t)).set ↔ _
  rw [View.set_slice_whole, Rect.mem_set_unit]
  exact Iff.rfl

/-- Every entry of the result array lies in the block of point `r / 4000`, `r` its row. -/
theorem cover (i : S800000x128.Idx) : ∃ t : Fin cfg2.N, (cfg2.win 7).flush t = true ∧ i ∈ ((cfg2.win 7).blk t).view.set := by
  have hi0 : (i 0).val < 800000 := (i 0).isLt
  have hi1 : (i 1).val < 128 := (i 1).isLt
  let t : Fin cfg2.N := ⟨(i 0).val / 4000, by rw [show cfg2.N = 200 from N_2]; omega⟩
  obtain ⟨-, -, -, -, -, -, -, ⟨q0, q1⟩⟩ := idx_facts t
  have q0' : win2_7.index t (0 : Fin 2) = (i 0).val / 4000 := q0
  refine ⟨t, flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-- THE ARRAY after the grid: `edge` of the seven arrays as the grid found them. -/
theorem final (c : Dev nD) : (dat2 V c).arrAt 7 cfg2.N
    = edge (V c main_v2) (V c main_v21) (V c main_v28) (V c main_v35) (V c main_v36) (V c main_v37) (V c main_v39) :=
  (dat2 V c).arrAt_eq_of_cover 7 _ (fun t _ => flushed_eq V c t) cover

end Cert.KernelIdeal.EdgeValue

end
-- ==== Proof.HostGlue.lean ====
/-
  The host operations between the grids, named.

  Between the edge projection and the edge update the program computes, with ordinary array operations, for every
  node the MEAN of the projected features of its incoming edges — the rows of the edge array are added into the row of
  their destination node, a column of ones is added the same way to count them, and the sum is divided by the larger of
  the count and one — and then reads node arrays back out along the edges: the row of an edge's destination, or of its
  source. An index below zero counts from the end (the number of nodes, 50000, is added to it) before it is used.

  These are the same operations, on the same operands, in the kernel's program and in the reference's; they are named
  here so that both sides can state what they apply them to without opening them.
-/
import proofs.«115020_j81716047774294_1_alg».proof.Proof.Gen.KernelIdeal

noncomputable section

namespace Cert.KernelIdeal.Glue

open Idealize.ShloMosaic Cert.KernelIdeal Cert.KernelIdeal.Gen

variable {F : FTy → Type} [FloatOps F]

/-- Node indices made non-negative — an index below zero counts from the end — and set as a column. -/
def wrapIdx (d : (⟨S800000, .i32⟩ : BufTy).Contents (Elt F)) : (⟨S800000x1, .i32⟩ : BufTy).Contents (Elt F) :=
  broadcastInDim S800000x1 ![0] bcast_S800000_S800000x1_0
    (select (cmpi .slt d (broadcastInDim S800000 ![] bcast_S_S800000 (constantI S_ 32 0#32)))
      (addi d (broadcastInDim S800000 ![] bcast_S_S800000 (constantI S_ 32 50000#32))) d)

/-- One row per edge: the row of the node array `x` at that edge's node index `d`. -/
def rowsAt (x : (⟨S50000x128, .f32⟩ : BufTy).Contents (Elt F)) (d : (⟨S800000, .i32⟩ : BufTy).Contents (Elt F)) :
    (⟨S800000x128, .f32⟩ : BufTy).Contents (Elt F) :=
  Host.gather gather_S50000x128_S800000x1_S800000x128_1_0_n_n_0_1_1128 x (wrapIdx d)

/-- One row per node: the sum of the edge rows `e` whose node index `d` is that node, over the larger of their number
    and one. -/
def meanInto (e : (⟨S800000x128, .f32⟩ : BufTy).Contents (Elt F)) (d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d) e)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- The upper half of the dense weight: its rows 0 … 127. -/
def upper (w : (⟨S256x128, .f32⟩ : BufTy).Contents (Elt F)) : (⟨S128x128, .f32⟩ : BufTy).Contents (Elt F) :=
  extractStridedSlice S128x128 ![0, 0] w slices_S256x128_S128x128_0_0

/-- The lower half of the dense weight: its rows 128 … 255. -/
def lower (w : (⟨S256x128, .f32⟩ : BufTy).Contents (Elt F)) : (⟨S128x128, .f32⟩ : BufTy).Contents (Elt F) :=
  extractStridedSlice S128x128 ![128, 0] w slices_S256x128_S128x128_128_0

/-- The entrywise sum of two vectors of 128 entries. -/
def addVec (a b : (⟨S128, .f32⟩ : BufTy).Contents (Elt F)) : (⟨S128, .f32⟩ : BufTy).Contents (Elt F) :=
  (addf : FVec F S128 .f32 → FVec F S128 .f32 → FVec F S128 .f32) a b

/-- A vector of 128 entries set as one row. -/
def asRow (b : (⟨S128, .f32⟩ : BufTy).Contents (Elt F)) : (⟨S1x128, .f32⟩ : BufTy).Contents (Elt F) :=
  fun i => shapeCast S1x128 b shapeCasts_S128_S1x128 i

end Cert.KernelIdeal.Glue

end
-- ==== Proof.KernelFold.lean ====
/-
  The kernel's two results as functions of its arguments.

  The contents of the buffers at the boundaries between the program's five stretches form a fold from the launch
  memory. Read backwards from the end:
  * the edge result is what the edge-update grid leaves, `edge` of the seven arrays it finds;
  * of those, the projected edge features are what the edge-projection grid left, `proj ef W_edge`; the three gathered
    arrays, the two halves of the dense weight and the bias row are what the host stretch between the grids computes
    from the projection, from the node result and from the arguments;
  * the node result is what the node grid left, `node nf W_node` of the bias set as a row by the first host stretch,
    and no later stretch writes it;
  * no stretch writes an argument, and a grid leaves its input arrays as it found them.
-/
import proofs.«115020_j81716047774294_1_alg».proof.Proof.NodeValue
import proofs.«115020_j81716047774294_1_alg».proof.Proof.ProjValue
import proofs.«115020_j81716047774294_1_alg».proof.Proof.EdgeValue
import proofs.«115020_j81716047774294_1_alg».proof.Proof.HostGlue
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Glue
open Idealize.ShloMosaic.Pipeline (Dat)

section AnyInstance

variable {F : FTy → Type} [FloatOps F]
variable (m : (ℓ : Loc nD τ sig) → Buf (Elt F) ℓ) (ρ : Dev nD → PrngReg)

/-! ## After the first host stretch: the node bias set as a row, everything else as launched -/

/-- The first stretch sets the node bias as one row. -/
theorem W1_v0 (c : Dev nD) : W1 m ρ c (Proc.devRef .tc main_v0) = asRow (m ((c : Thread nD τ).loc main_arg4)) := by
  show StableHlo.after hostOps0 (W0 m ρ c) (Proc.devRef .tc main_v0) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

/-! ## After the node grid, and after the edge-projection grid: the arguments they do not read are as launched -/

theorem W2_arg1 (c : Dev nD) : W2 m ρ c (Proc.devRef .tc main_arg1) = m ((c : Thread nD τ).loc main_arg1) :=
  (W2_of_ne m ρ c main_arg1 (by decide)).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg5 (c : Dev nD) : W3 m ρ c (Proc.devRef .tc main_arg5) = m ((c : Thread nD τ).loc main_arg5) :=
  (W3_of_ne m ρ c main_arg5 (by decide)).trans (W2_arg5 m ρ c)
theorem W3_arg6 (c : Dev nD) : W3 m ρ c (Proc.devRef .tc main_arg6) = m ((c : Thread nD τ).loc main_arg6) :=
  (W3_of_ne m ρ c main_arg6 (by decide)).trans (W2_arg6 m ρ c)
theorem W3_arg7 (c : Dev nD) : W3 m ρ c (Proc.devRef .tc main_arg7) = m ((c : Thread nD τ).loc main_arg7) :=
  (W3_of_ne m ρ c main_arg7 (by decide)).trans (W2_arg7 m ρ c)
theorem W3_arg8 (c : Dev nD) : W3 m ρ c (Proc.devRef .tc main_arg8) = m ((c : Thread nD τ).loc main_arg8) :=
  (W3_of_ne m ρ c main_arg8 (by decide)).trans (W2_arg8 m ρ c)
theorem W3_arg9 (c : Dev nD) : W3 m ρ c (Proc.devRef .tc main_arg9) = m ((c : Thread nD τ).loc main_arg9) :=
  (W3_of_ne m ρ c main_arg9 (by decide)).trans (W2_arg9 m ρ c)

/-- The node result is the node grid's output array, and the edge-projection grid does not touch it. -/
theorem W3_v1 (c : Dev nD) : W3 m ρ c (Proc.devRef .tc main_v1) = (dat0 (V1 m ρ) c).arrAt 3 cfg0.N :=
  (W3_of_ne m ρ c main_v1 (by decide)).trans (W2_arr m ρ c 3)
/-- The projected edge features are the edge-projection grid's output array. -/
theorem W3_v2 (c : Dev nD) : W3 m ρ c (Proc.devRef .tc main_v2) = (dat1 (V2 m ρ) c).arrAt 2 cfg1.N :=
  W3_arr m ρ c 2

/-! ## After the host stretch between the grids -/

/-- The stretch does not write the node result. -/
theorem W4_v1 (c : Dev nD) : W4 m ρ c (Proc.devRef .tc main_v1) = (W3 m ρ c (Proc.devRef .tc main_v1)) := by
  show StableHlo.after hostOps2 (W3 m ρ c) (Proc.devRef .tc main_v1) = _
  after_results_simp <;> rfl
/-- The stretch does not write the projected edge features. -/
theorem W4_v2 (c : Dev nD) : W4 m ρ c (Proc.devRef .tc main_v2) = (W3 m ρ c (Proc.devRef .tc main_v2)) := by
  show StableHlo.after hostOps2 (W3 m ρ c) (Proc.devRef .tc main_v2) = _
  after_results_simp <;> rfl
/-- Per edge, the mean of the projected features coming into its destination node. -/
theorem W4_v21 (c : Dev nD) : W4 m ρ c (Proc.devRef .tc main_v21) = rowsAt (meanInto (W3 m ρ c (Proc.devRef .tc main_v2)) (W3 m ρ c (Proc.devRef .tc main_arg9))) (W3 m ρ c (Proc.devRef .tc main_arg9)) := by
  show StableHlo.after hostOps2 (W3 m ρ c) (Proc.devRef .tc main_v21) = _
  after_results_simp <;> rfl
/-- Per edge, the node result's row at its source. -/
theorem W4_v28 (c : Dev nD) : W4 m ρ c (Proc.devRef .tc main_v28) = rowsAt (W3 m ρ c (Proc.devRef .tc main_v1)) (W3 m ρ c (Proc.devRef .tc main_arg8)) := by
  show StableHlo.after hostOps2 (W3 m ρ c) (Proc.devRef .tc main_v28) = _
  after_results_simp <;> rfl
/-- Per edge, the node result's row at its destination. -/
theorem W4_v35 (c : Dev nD) : W4 m ρ c (Proc.devRef .tc main_v35) = rowsAt (W3 m ρ c (Proc.devRef .tc main_v1)) (W3 m ρ c (Proc.devRef .tc main_arg9)) := by
  show StableHlo.after hostOps2 (W3 m ρ c) (Proc.devRef .tc main_v35) = _
  after_results_simp <;> rfl
/-- The upper half of the dense weight. -/
theorem W4_v36 (c : Dev nD) : W4 m ρ c (Proc.devRef .tc main_v36) = upper (W3 m ρ c (Proc.devRef .tc main_arg6)) := by
  show StableHlo.after hostOps2 (W3 m ρ c) (Proc.devRef .tc main_v36) = _
  after_results_simp <;> rfl
/-- The lower half of the dense weight. -/
theorem W4_v37 (c : Dev nD) : W4 m ρ c (Proc.devRef .tc main_v37) = lower (W3 m ρ c (Proc.devRef .tc main_arg6)) := by
  show StableHlo.after hostOps2 (W3 m ρ c) (Proc.devRef .tc main_v37) = _
  after_results_simp <;> rfl
/-- The sum of the dense bias and the edge bias, set as one row. -/
theorem W4_v39 (c : Dev nD) : W4 m ρ c (Proc.devRef .tc main_v39) = asRow (addVec (W3 m ρ c (Proc.devRef .tc main_arg7)) (W3 m ρ c (Proc.devRef .tc main_arg5))) := by
  show StableHlo.after hostOps2 (W3 m ρ c) (Proc.devRef .tc main_v39) = _
  after_results_simp <;> rfl

end AnyInstance

/-! ## At the exact instance: the grids' output arrays are `node`, `proj` and `edge` -/

variable (m : (ℓ : Loc nD τ sig) → Buf (Elt Ideal) ℓ) (ρ : Dev nD → PrngReg)

/-- The node grid's output array: `node` of the node features, the node weight and the node bias as a row. -/
theorem node_arr (c : Dev nD) : (dat0 (V1 m ρ) c).arrAt 3 cfg0.N
    = NodeValue.node (m ((c : Thread nD τ).loc main_arg0)) (m ((c : Thread nD τ).loc main_arg2)) (asRow (m ((c : Thread nD τ).loc main_arg4))) := by
  refine (NodeValue.final (V1 m ρ) c).trans ?_
  show NodeValue.node (W1 m ρ c (Proc.devRef .tc main_arg0)) (W1 m ρ c (Proc.devRef .tc main_arg2)) (W1 m ρ c (Proc.devRef .tc main_v0)) = _
  rw [W1_arg0, W1_arg2, W1_v0]

/-- The edge-projection grid's output array: `proj` of the edge features and the edge weight. -/
theorem proj_arr (c : Dev nD) : (dat1 (V2 m ρ) c).arrAt 2 cfg1.N = ProjValue.proj (m ((c : Thread nD τ).loc main_arg1)) (m ((c : Thread nD τ).loc main_arg3)) := by
  refine (ProjValue.final (V2 m ρ) c).trans ?_
  show ProjValue.proj (W2 m ρ c (Proc.devRef .tc main_arg1)) (W2 m ρ c (Proc.devRef .tc main_arg3)) = _
  rw [W2_arg1, W2_arg3]

/-- THE NODE RESULT at the end of the run. -/
theorem res_node (c : Dev nD) : W5 m ρ c (Proc.devRef .tc main_v1) = NodeValue.node (m ((c : Thread nD τ).loc main_arg0)) (m ((c : Thread nD τ).loc main_arg2)) (asRow (m ((c : Thread nD τ).loc main_arg4))) := by
  rw [W5_of_ne m ρ c main_v1 (by decide), W4_v1, W3_v1, node_arr]

/-- THE EDGE RESULT at the end of the run. -/
theorem res_edge (c : Dev nD) : W5 m ρ c (Proc.devRef .tc main_v40)
    = EdgeValue.edge (ProjValue.proj (m ((c : Thread nD τ).loc main_arg1)) (m ((c : Thread nD τ).loc main_arg3)))
        (rowsAt (meanInto (ProjValue.proj (m ((c : Thread nD τ).loc main_arg1)) (m ((c : Thread nD τ).loc main_arg3))) (m ((c : Thread nD τ).loc main_arg9))) (m ((c : Thread nD τ).loc main_arg9)))
        (rowsAt (NodeValue.node (m ((c : Thread nD τ).loc main_arg0)) (m ((c : Thread nD τ).loc main_arg2)) (asRow (m ((c : Thread nD τ).loc main_arg4)))) (m ((c : Thread nD τ).loc main_arg8)))
        (rowsAt (NodeValue.node (m ((c : Thread nD τ).loc main_arg0)) (m ((c : Thread nD τ).loc main_arg2)) (asRow (m ((c : Thread nD τ).loc main_arg4)))) (m ((c : Thread nD τ).loc main_arg9)))
        (upper (m ((c : Thread nD τ).loc main_arg6))) (lower (m ((c : Thread nD τ).loc main_arg6))) (asRow (addVec (m ((c : Thread nD τ).loc main_arg7)) (m ((c : Thread nD τ).loc main_arg5)))) := by
  refine (W5_arr m ρ c 7).trans ((EdgeValue.final (V4 m ρ) c).trans ?_)
  show EdgeValue.edge (W4 m ρ c (Proc.devRef .tc main_v2)) (W4 m ρ c (Proc.devRef .tc main_v21)) (W4 m ρ c (Proc.devRef .tc main_v28)) (W4 m ρ c (Proc.devRef .tc main_v35))
      (W4 m ρ c (Proc.devRef .tc main_v36)) (W4 m ρ c (Proc.devRef .tc main_v37)) (W4 m ρ c (Proc.devRef .tc main_v39)) = _
  rw [W4_v2, W4_v21, W4_v28, W4_v35, W4_v36, W4_v37, W4_v39, W3_v1, W3_v2, node_arr, proj_arr,
    W3_arg5, W3_arg6, W3_arg7, W3_arg8, W3_arg9]

end Cert.KernelIdeal.Fold

end
-- ==== Proof.Bridge.lean ====
/-
  The kernel's three stage functions are the reference's stages, at the exact instance.

  * `proj ef W` is the reference's `ef · W_edge`: both are the sum `Σ_k ef[r,k] · W[k,c]`.
  * `node nf W b` with the bias set as a row is the reference's `relu(nf · W_node + node_bias)`: the same sum, the
    bias read at the column, the maximum with zero.
  * `edge` of the projected features, the three gathered arrays, the two halves of the dense weight and the summed
    bias is the reference's `relu(concat([ef₁ + mean, (src + dst) · ½]) · dense_W + dense_b + edge_bias)`.
    The reference contracts over the 256 columns of the concatenation; columns 0 … 127 hold the first operand and meet
    rows 0 … 127 of the dense weight (its upper half), columns 128 … 255 hold the second and meet rows 128 … 255 (its
    lower half), so the sum over 256 is the kernel's two sums over 128. The reference adds the two biases one after the
    other, the kernel adds their sum: addition of extended reals is associative. Neither step needs the inputs finite.
  * The mean over incoming edges and the gathers along the edges are the same operations on both sides (HostGlue).
-/
import proofs.«115020_j81716047774294_1_alg».proof.Proof.NodeValue
import proofs.«115020_j81716047774294_1_alg».proof.Proof.ProjValue
import proofs.«115020_j81716047774294_1_alg».proof.Proof.EdgeValue
import proofs.«115020_j81716047774294_1_alg».proof.Proof.HostGlue
import proofs.«115020_j81716047774294_1_alg».proof.Proof.Gen.ReferenceIdeal.Read
import Idealize.ShloMosaic.Lib.ValueLayout

set_option maxRecDepth 16384

noncomputable section

namespace Cert.Bridge

open Idealize.ShloMosaic Idealize.ShloMosaic.ValueIdx
open Cert.KernelIdeal Cert.KernelIdeal.Gen Cert.KernelIdeal.Glue Cert.ReferenceIdeal.Read

/-! ## The shared host operations -/

/-- The reference's mean over incoming edges, gathered at the destinations, is the named one of its projection. -/
theorem mean_eq (x1 : (⟨S800000x128, .f32⟩ : BufTy).Contents (Elt Ideal)) (x3 : (⟨S128x128, .f32⟩ : BufTy).Contents (Elt Ideal)) (x9 : (⟨S800000, .i32⟩ : BufTy).Contents (Elt Ideal)) :
    val_main_v26 (F := Ideal) x1 x3 x9 = rowsAt (meanInto (val_main_v1 (F := Ideal) x1 x3) x9) x9 := rfl

/-- The reference's node result gathered at the sources is the named gather of it. -/
theorem src_eq (x0 : (⟨S50000x128, .f32⟩ : BufTy).Contents (Elt Ideal)) (x2 : (⟨S128x128, .f32⟩ : BufTy).Contents (Elt Ideal)) (x4 : (⟨S128, .f32⟩ : BufTy).Contents (Elt Ideal)) (x8 : (⟨S800000, .i32⟩ : BufTy).Contents (Elt Ideal)) :
    val_main_v34 (F := Ideal) x0 x2 x4 x8 = rowsAt (val_main_v19 (F := Ideal) x0 x2 x4) x8 := rfl

/-- The reference's node result gathered at the destinations is the named gather of it. -/
theorem dst_eq (x0 : (⟨S50000x128, .f32⟩ : BufTy).Contents (Elt Ideal)) (x2 : (⟨S128x128, .f32⟩ : BufTy).Contents (Elt Ideal)) (x4 : (⟨S128, .f32⟩ : BufTy).Contents (Elt Ideal)) (x9 : (⟨S800000, .i32⟩ : BufTy).Contents (Elt Ideal)) :
    val_main_v41 (F := Ideal) x0 x2 x4 x9 = rowsAt (val_main_v19 (F := Ideal) x0 x2 x4) x9 := rfl

/-! ## The projection -/

theorem proj_eq (x1 : (⟨S800000x128, .f32⟩ : BufTy).Contents (Elt Ideal)) (x3 : (⟨S128x128, .f32⟩ : BufTy).Contents (Elt Ideal)) :
    ProjValue.proj x1 x3 = val_main_v1 (F := Ideal) x1 x3 := by
  funext i
  rw [val_main_v1_apply]
  rfl

/-! ## A vector set as a row, read at column `c` -/

/-- The row form of a 128-vector holds, in column `c`, the vector's entry `c`. -/
theorem asRow_apply (b : (⟨S128, .f32⟩ : BufTy).Contents (Elt Ideal)) (c : Fin 128) : asRow b (ix2 (0 : Fin 1) c) = b (ix1 c) :=
  shapeCast_a_1a_apply b shapeCasts_S128_S1x128 (0 : Fin 1) c

/-! ## The node update -/

theorem node_eq (x0 : (⟨S50000x128, .f32⟩ : BufTy).Contents (Elt Ideal)) (x2 : (⟨S128x128, .f32⟩ : BufTy).Contents (Elt Ideal)) (x4 : (⟨S128, .f32⟩ : BufTy).Contents (Elt Ideal)) :
    NodeValue.node x0 x2 (asRow x4) = val_main_v19 (F := Ideal) x0 x2 x4 := by
  funext i
  rw [val_main_v19_apply, val_main_v18_apply, val_main_v0_apply, val_main_v17_apply, val_main_v16_apply,
    val_main_call0_v0_apply, val_main_call0_cst_apply]
  have e1 : NodeValue.abias i = ix2 (0 : Fin 1) (⟨(i 1).val, (i 1).isLt⟩ : Fin 128) :=
    funext fun a => by match a with | ⟨0, _⟩ => rfl | ⟨1, _⟩ => rfl
  have e2 : idx_main_v16 (idx_main_v17 i) = ix1 (⟨(i 1).val, (i 1).isLt⟩ : Fin 128) :=
    funext fun a => by match a with | ⟨0, _⟩ => rfl
  have hb : asRow x4 (NodeValue.abias i) = x4 (idx_main_v16 (idx_main_v17 i)) := by
    rw [e1, e2]; exact asRow_apply x4 _
  unfold NodeValue.node
  rw [hb]
  rfl

/-! ## The edge update -/

theorem edge_eq (x0 : (⟨S50000x128, .f32⟩ : BufTy).Contents (Elt Ideal)) (x1 : (⟨S800000x128, .f32⟩ : BufTy).Contents (Elt Ideal)) (x2 x3 : (⟨S128x128, .f32⟩ : BufTy).Contents (Elt Ideal))
    (x4 x5 : (⟨S128, .f32⟩ : BufTy).Contents (Elt Ideal)) (x6 : (⟨S256x128, .f32⟩ : BufTy).Contents (Elt Ideal)) (x7 : (⟨S128, .f32⟩ : BufTy).Contents (Elt Ideal)) (x8 x9 : (⟨S800000, .i32⟩ : BufTy).Contents (Elt Ideal)) :
    EdgeValue.edge (val_main_v1 (F := Ideal) x1 x3) (val_main_v26 (F := Ideal) x1 x3 x9)
        (val_main_v34 (F := Ideal) x0 x2 x4 x8) (val_main_v41 (F := Ideal) x0 x2 x4 x9)
        (upper x6) (lower x6) (asRow (addVec x7 x5))
      = val_main_v53 (F := Ideal) x0 x1 x2 x3 x4 x5 x6 x7 x8 x9 := by
  funext i
  rw [val_main_v53_apply, val_main_v52_apply, val_main_v49_apply, val_main_v46_apply, val_main_v48_apply, val_main_v47_apply,
    val_main_v51_apply, val_main_v50_apply, val_main_call1_v0_apply, val_main_call1_cst_apply]
  -- the contraction over the 256 columns of the concatenation, split at column 128
  have hsum : (∑ k : Fin 256, val_main_v45 (F := Ideal) x0 x1 x2 x3 x4 x8 x9 (lidx_main_v46 i k) * x6 (ridx_main_v46 i k))
      = (∑ k : Fin 128, (val_main_v1 (F := Ideal) x1 x3 (EdgeValue.arow i k) + val_main_v26 (F := Ideal) x1 x3 x9 (EdgeValue.arow i k))
            * upper x6 (EdgeValue.acol i k))
        + ∑ k : Fin 128, ((val_main_v34 (F := Ideal) x0 x2 x4 x8 (EdgeValue.arow i k) + val_main_v41 (F := Ideal) x0 x2 x4 x9 (EdgeValue.arow i k))
            * EdgeValue.half) * lower x6 (EdgeValue.acol i k) := by
    refine (Fin.sum_univ_add (a := 128) (b := 128)
      (fun k : Fin (128 + 128) => val_main_v45 (F := Ideal) x0 x1 x2 x3 x4 x8 x9 (lidx_main_v46 i k) * x6 (ridx_main_v46 i k))).trans ?_
    refine congrArg₂ (· + ·) (Finset.sum_congr rfl fun k _ => ?_) (Finset.sum_congr rfl fun k _ => ?_)
    · -- columns 0 … 127: the first operand, against the upper half of the weight
      have hc : val_main_v45 (F := Ideal) x0 x1 x2 x3 x4 x8 x9 (lidx_main_v46 i (Fin.castAdd 128 k))
          = val_main_v27 (F := Ideal) x1 x3 x9 (EdgeValue.arow i k) := by
        unfold val_main_v45
        exact concatenate_pair_apply_left (t := Cert.ReferenceIdeal.S800000x256) (s₁ := Cert.ReferenceIdeal.S800000x128)
          (s₂ := Cert.ReferenceIdeal.S800000x128) (1 : Fin 2) _ _ _
          (lidx_main_v46 i (Fin.castAdd 128 k)) rfl (EdgeValue.arow i k)
          (fun b => by match b with | ⟨0, _⟩ => rfl | ⟨1, _⟩ => rfl)
      have hw : x6 (ridx_main_v46 i (Fin.castAdd 128 k)) = upper x6 (EdgeValue.acol i k) := by
        unfold upper
        exact (extractStridedSlice_apply _ x6 _ (EdgeValue.acol i k) (ridx_main_v46 i (Fin.castAdd 128 k))
          (fun a => by match a with | ⟨0, _⟩ => exact (Nat.zero_add _).symm | ⟨1, _⟩ => exact (Nat.zero_add _).symm)).symm
      rw [hc, hw, val_main_v27_apply]
      rfl
    · -- columns 128 … 255: the second operand, against the lower half of the weight
      have hc : val_main_v45 (F := Ideal) x0 x1 x2 x3 x4 x8 x9 (lidx_main_v46 i (Fin.natAdd 128 k))
          = val_main_v44 (F := Ideal) x0 x2 x4 x8 x9 (EdgeValue.arow i k) := by
        unfold val_main_v45
        exact concatenate_pair_apply_right (t := Cert.ReferenceIdeal.S800000x256) (s₁ := Cert.ReferenceIdeal.S800000x128)
          (s₂ := Cert.ReferenceIdeal.S800000x128) (1 : Fin 2) _ _ _
          (lidx_main_v46 i (Fin.natAdd 128 k)) rfl rfl (EdgeValue.arow i k)
          (fun b hb => by
            match b, hb with
            | ⟨0, _⟩, _ => rfl
            | ⟨1, _⟩, hb => exact absurd (Fin.ext rfl) hb)
          (by show k.val + 128 = 128 + k.val; omega)
      have hw : x6 (ridx_main_v46 i (Fin.natAdd 128 k)) = lower x6 (EdgeValue.acol i k) := by
        unfold lower
        exact (extractStridedSlice_apply _ x6 _ (EdgeValue.acol i k) (ridx_main_v46 i (Fin.natAdd 128 k))
          (fun a => by match a with | ⟨0, _⟩ => rfl | ⟨1, _⟩ => exact (Nat.zero_add _).symm)).symm
      rw [hc, hw, val_main_v44_apply, val_main_v42_apply, val_main_v43_apply, val_main_cst_8_apply]
      rfl
  -- the summed bias row at column `i₁`
  have e1 : EdgeValue.abias i = ix2 (0 : Fin 1) (⟨(i 1).val, (i 1).isLt⟩ : Fin 128) :=
    funext fun a => by match a with | ⟨0, _⟩ => rfl | ⟨1, _⟩ => rfl
  have e7 : idx_main_v47 (idx_main_v48 i) = ix1 (⟨(i 1).val, (i 1).isLt⟩ : Fin 128) :=
    funext fun a => by match a with | ⟨0, _⟩ => rfl
  have e5 : idx_main_v50 (idx_main_v51 i) = ix1 (⟨(i 1).val, (i 1).isLt⟩ : Fin 128) :=
    funext fun a => by match a with | ⟨0, _⟩ => rfl
  have hbias : asRow (addVec x7 x5) (EdgeValue.abias i) = x7 (idx_main_v47 (idx_main_v48 i)) + x5 (idx_main_v50 (idx_main_v51 i)) := by
    rw [e1, e7, e5]; exact asRow_apply (addVec x7 x5) _
  unfold EdgeValue.edge
  rw [hsum, hbias]
  exact congrArg₂ max (add_assoc _ _ _).symm rfl

end Cert.Bridge

end
-- ==== Proof.lean ====
/-
  A graph layer's update of its node and edge features, tiled on three grids, against its plain array form.

  Both programs compute, from node features `nf : 50000 × 128`, edge features `ef : 800000 × 128`, an edge's source and
  destination node indices, two 128 × 128 weights, a 256 × 128 dense weight and three biases:

      nf₂ = max(nf · W_node + node_bias, 0)
      ef₁ = ef · W_edge
      mean[v] = (Σ_{e : dst e = v} ef₁[e]) / max(#{e : dst e = v}, 1)
      ef₂ = max([ef₁ + mean[dst], (nf₂[src] + nf₂[dst]) · ½] · dense_W + dense_b + edge_bias, 0)

  and return `(nf₂, ef₂)`. The kernel computes `nf₂`, `ef₁` and `ef₂` on grids over blocks of rows — narrowing the
  factors of each product to half width, which changes nothing at exact arithmetic — and keeps the mean and the
  gathers as array operations between the grids; it multiplies the two halves of the concatenation by the two halves
  of `dense_W` separately and adds the two biases before adding them to the product.

  At exact arithmetic on the extended reals the two are equal entry by entry, for all inputs: a sum over 256 indices is
  the sum over the first 128 plus the sum over the last 128, and addition is associative; no cancellation or
  distribution is used, so the inputs' finiteness is never called on.

  The pieces: each grid's output array as one function of the arrays it finds (NodeValue, ProjValue, EdgeValue); the
  kernel's run with its results named (KernelRun) and read back to the arguments (KernelFold, over HostGlue's names
  for the shared array operations); the three functions against the reference's stages (Bridge).
-/
import proofs.«115020_j81716047774294_1_alg».proof.Defs
import proofs.«115020_j81716047774294_1_alg».proof.Proof.Gen.Kernel
import proofs.«115020_j81716047774294_1_alg».proof.Proof.Gen.Kernel.Frame
import proofs.«115020_j81716047774294_1_alg».proof.Proof.Gen.KernelIdeal
import proofs.«115020_j81716047774294_1_alg».proof.Proof.Gen.KernelIdeal.Frame
import proofs.«115020_j81716047774294_1_alg».proof.Proof.Gen.ReferenceIdeal
import proofs.«115020_j81716047774294_1_alg».proof.Proof.Gen.ReferenceIdeal.Run
import proofs.«115020_j81716047774294_1_alg».proof.Proof.Gen.ReferenceIdeal.Read
import proofs.«115020_j81716047774294_1_alg».proof.Proof.Gen.Pre_finite_inputs
import proofs.«115020_j81716047774294_1_alg».proof.Proof.KernelRun
import proofs.«115020_j81716047774294_1_alg».proof.Proof.KernelFold
import proofs.«115020_j81716047774294_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does the kernel at exact arithmetic. -/
theorem frame_kernelIdeal : Cert.frame_KernelIdeal := fun m ρ _ => Cert.KernelIdeal.Gen.frame m ρ

/-- So does the reference: its run with both results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel at exact arithmetic is the kernel's own text read there: nothing was rewritten. -/
theorem preserves : Cert.preserves_Kernel_KernelIdeal := trivial

/-- From memories that agree on the arguments both programs run to the end, the node results equal and the edge
    results equal, entry by entry, as extended reals. -/
theorem algebraic : Cert.algebraic_KernelIdeal_ReferenceIdeal := by
  intro m ρ m' ρ' _ hagree
  refine ⟨_, _, Cert.KernelIdeal.RunValue.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the node result
    obtain ⟨a0, a1, a2, a3, a4, a5, a6, a7, a8, a9⟩ := hagree c
    rw [Cert.ReferenceIdeal.Read.val_main_v19_eq, a0, a2, a4]
    exact ((Cert.KernelIdeal.Fold.res_node m ρ c).trans (Cert.Bridge.node_eq _ _ _)).symm
  · -- the edge result
    obtain ⟨a0, a1, a2, a3, a4, a5, a6, a7, a8, a9⟩ := hagree c
    rw [Cert.ReferenceIdeal.Read.val_main_v53_eq, a0, a1, a2, a3, a4, a5, a6, a7, a8, a9]
    refine ((Cert.KernelIdeal.Fold.res_edge m ρ c).trans ?_).symm
    rw [Cert.Bridge.proj_eq, Cert.Bridge.node_eq, ← Cert.Bridge.mean_eq, ← Cert.Bridge.src_eq, ← Cert.Bridge.dst_eq]
    exact Cert.Bridge.edge_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
